-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S1600000 32) (main_arg2 : IVec S1600000 32) (main_arg3 : FVec F S64x64 .f32) (main_arg4 : FVec F S64 .f32) (main_arg5 : FVec F S64x1 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 70
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S1x64, .f32⟩
  | .hbm, ⟨54, _⟩ => ⟨S100000x1, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S1x1, .f32⟩
  | .hbm, ⟨69, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S1x64, .f32⟩
  | .local _ .vmem, ⟨14, _⟩ => ⟨S64x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_cst_7 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_v32 : Ref sig .tc := ⟨.hbm, 56, rfl⟩
abbrev main_v33 : Ref sig .tc := ⟨.hbm, 57, rfl⟩
abbrev main_c_11 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S100000x1.size a
  hwx1_6 : ∀ i : grid1.Coords, EltTy.bits .f32 = 32 ∨ (Rect.block (s := S100000x1) S5000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .i1⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S100000x1, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x1, .f32⟩
  | .hbm, ⟨106, _⟩ => ⟨S_, .f32⟩
  | .hbm, ⟨107, _⟩ => ⟨S100000x1, .f32⟩
  | .hbm, ⟨108, _⟩ => ⟨S1600000x1, .i32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S1x1, .f32⟩
  | .hbm, ⟨113, _⟩ => ⟨S100000x1, .f32⟩
  | .hbm, ⟨114, _⟩ => ⟨S100000x1, .f32⟩
  | .hbm, ⟨115, _⟩ => ⟨S100000x1, .f32⟩
  | .hbm, ⟨116, _⟩ => ⟨S100000x1, .f32⟩
  | .hbm, ⟨117, _⟩ => ⟨S_, .f32⟩
  | .hbm, ⟨118, _⟩ => ⟨S100000x1, .f32⟩
  | .hbm, ⟨119, _⟩ => ⟨S100000x1, .f32⟩
  | .hbm, ⟨120, _⟩ => ⟨S_, .f32⟩
  | .hbm, ⟨121, _⟩ => ⟨S100000x1, .f32⟩
  | .hbm, ⟨122, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_cst_7 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_call3_v0 : Ref sig .tc := ⟨.hbm, 77, rfl⟩
abbrev main_call3_v1 : Ref sig .tc := ⟨.hbm, 78, rfl⟩
abbrev main_v47 : Ref sig .tc := ⟨.hbm, 79, rfl⟩
abbrev main_cst_15 : Ref sig .tc := ⟨.hbm, 80, rfl⟩
abbrev main_v48 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_cst_17 : Ref sig .tc := ⟨.hbm, 86, rfl⟩
abbrev main_call4_v0 : Ref sig .tc := ⟨.hbm, 87, rfl⟩
abbrev main_call4_v1 : Ref sig .tc := ⟨.hbm, 88, rfl⟩
abbrev main_v52 : Ref sig .tc := ⟨.hbm, 89, rfl⟩
abbrev main_cst_18 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_c_20 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_21 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_22 : Ref sig .tc := ⟨.hbm, 117, rfl⟩
abbrev main_v76 : Ref sig .tc := ⟨.hbm, 118, rfl⟩
abbrev main_v77 : Ref sig .tc := ⟨.hbm, 119, rfl⟩
abbrev main_cst_23 : Ref sig .tc := ⟨.hbm, 120, rfl⟩
abbrev main_v78 : Ref sig .tc := ⟨.hbm, 121, rfl⟩
abbrev main_v79 : Ref sig .tc := ⟨.hbm, 122, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.Stages.lean ====
/-
  The three dense stages of a two-layer graph convolution, as whole-array functions of arbitrary operand arrays, and
  each of them read at an index.

  With N = 100000 nodes and feature width 64:
    * `scaleRows x n`      : row p of `x` times the scalar `n p`                      (an [N,64] array);
    * `hiddenProj a nin nout W1 b1 W2` : row p is  relu((a_p · nin_p) W1 + b1) · nout_p, then projected by W2  (an [N,1] column):
          out p = Σ_k max(Σ_j (a p j · nin p) · W1 j k + b1 k, 0) · nout p · W2 k ;
    * `outProb a nin b2`   : the logistic function of  a p · nin p + b2                   (an [N,1] column).
  Each is spelt with the very operations the reference program applies at that stage (a product with a column broadcast
  along the rows, a contraction over the 64 features, a row broadcast of the bias, a maximum with the zero array, and
  1 / (1 + exp(-v)) spelt with negate, exponential, add and divide), so that the reference's result is a composition of
  these three with the gathers and scatter-additions along the graph's edges in between. Read at an index, a contraction
  is the sum over the 64 positions of its single contracted axis, and a broadcast reads its operand at the row (or
  column) the index names.
-/
import proofs.«135483_j55594056680044_1_alg».proof.Proof.Gen.ReferenceIdeal
import Idealize.ShloMosaic.Lib.ValueIdx
import Idealize.ShloMosaic.Lib.Pipeline.Value
import Idealize.ShloMosaic.PureOps.Ideal.Laws

noncomputable section

namespace Cert.GraphConv

open Cert.ReferenceIdeal Cert.ReferenceIdeal.Gen Idealize.ShloMosaic Idealize.ShloMosaic.ValueIdx

/-! ## The word 1.0 -/

/-- The single-precision word of 1.0 denotes the real number 1. -/
theorem one_f32 : Ideal.ofBits .f32 0x3F800000#32 = 1 := by
  simp [Ideal.ofBits, Ideal.ieee, -EReal.coe_mul]; norm_num

/-! ## Broadcasts read at an index -/

/-- An [N,1] column broadcast along the rows of an [N,64] array reads, at (p, q), the column at p. -/
theorem colBcast_apply (n : FVec Ideal S100000x1 .f32) (p : Fin 100000) (q : Fin 64) :
    broadcastInDim S100000x64 ![0, 1] bcast_S100000x1_S100000x64_0_1 n (ix2 p q) = n (ix2 p (0 : Fin 1)) :=
  broadcastInDim_apply _ bcast_S100000x1_S100000x64_0_1 n (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- A [1,64] row broadcast down the rows of an [N,64] array reads, at (p, q), the row at q. -/
theorem rowBcast_apply (b : FVec Ideal S1x64 .f32) (p : Fin 100000) (q : Fin 64) :
    broadcastInDim S100000x64 ![0, 1] bcast_S1x64_S100000x64_0_1 b (ix2 p q) = b (ix2 (0 : Fin 1) q) :=
  broadcastInDim_apply _ bcast_S1x64_S100000x64_0_1 b (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A [1,1] array broadcast to an [N,1] column reads its one entry everywhere. -/
theorem unitBcast_apply (b : FVec Ideal S1x1 .f32) (p : Fin 100000) :
    broadcastInDim S100000x1 ![0, 1] bcast_S1x1_S100000x1_0_1 b (ix2 p (0 : Fin 1)) = b (ix2 (0 : Fin 1) (0 : Fin 1)) :=
  broadcastInDim_apply _ bcast_S1x1_S100000x1_0_1 b (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else 0; rw [if_pos rfl])

/-! ## The two contractions read at an index -/

theorem hid_lhs0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem hid_rhs1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The [N,64] × [64,64] product at (p, c): the sum over the 64 features k of left (p, k) times right (k, c). -/
theorem dotHidden_apply (l : FVec Ideal S100000x64 .f32) (r : FVec Ideal S64x64 .f32) (p : Fin 100000) (c : Fin 64) :
    Host.dotGeneral dot_S100000x64_S64x64_S100000x64_1_0_0_1_n_n none l r (ix2 p c) = ∑ k : Fin 64, l (ix2 p k) * r (ix2 k c) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p c) ((ValueIdx.contrEquiv1 dot_S100000x64_S64x64_S100000x64_1_0_0_1_n_n 64 rfl rfl).symm k) = ix2 p k := funext fun a => Fin.ext (by
    match a with
    | ⟨0, _⟩ => exact hid_lhs0 _ _
    | ⟨1, _⟩ => exact (dot_S100000x64_S64x64_S100000x64_1_0_0_1_n_n.lhsIdx_val_of_single rfl _ _).trans hk)
  have er : dot_S100000x64_S64x64_S100000x64_1_0_0_1_n_n.rhsIdx (ix2 p c) ((ValueIdx.contrEquiv1 dot_S100000x64_S64x64_S100000x64_1_0_0_1_n_n 64 rfl rfl).symm k) = ix2 k c := funext fun a => Fin.ext (by
    match a with
    | ⟨0, _⟩ => exact (dot_S100000x64_S64x64_S100000x64_1_0_0_1_n_n.rhsIdx_val_of_single rfl _ _).trans hk
    | ⟨1, _⟩ => exact hid_rhs1 _ _)
  rw [el, er]

theorem prj_lhs0 (i : S100000x1.Idx) (q : dot_S100000x64_S64x1_S100000x1_1_0_0_1_n_n.contr.Idx) :
    (dot_S100000x64_S64x1_S100000x1_1_0_0_1_n_n.lhsIdx i q 0).val = (i 0).val := by
  unfold DotDims.lhsIdx
  rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
  rfl
theorem prj_rhs1 (i : S100000x1.Idx) (q : dot_S100000x64_S64x1_S100000x1_1_0_0_1_n_n.contr.Idx) :
    (dot_S100000x64_S64x1_S100000x1_1_0_0_1_n_n.rhsIdx i q 1).val = (i 1).val := by
  unfold DotDims.rhsIdx
  rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
  rfl

/-- The [N,64] × [64,1] product at (p, 0): the sum over the 64 features k of left (p, k) times right (k, 0). -/
theorem dotProj_apply (l : FVec Ideal S100000x64 .f32) (r : FVec Ideal S64x1 .f32) (p : Fin 100000) :
    Host.dotGeneral dot_S100000x64_S64x1_S100000x1_1_0_0_1_n_n none l r (ix2 p (0 : Fin 1)) = ∑ k : Fin 64, l (ix2 p k) * r (ix2 k (0 : Fin 1)) := by
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx (ix2 p (0 : Fin 1)) ((ValueIdx.contrEquiv1 dot_S100000x64_S64x1_S100000x1_1_0_0_1_n_n 64 rfl rfl).symm k) = ix2 p k := funext fun a => Fin.ext (by
    match a with
    | ⟨0, _⟩ => exact prj_lhs0 _ _
    | ⟨1, _⟩ => exact (dot_S100000x64_S64x1_S100000x1_1_0_0_1_n_n.lhsIdx_val_of_single rfl _ _).trans hk)
  have er : dot_S100000x64_S64x1_S100000x1_1_0_0_1_n_n.rhsIdx (ix2 p (0 : Fin 1)) ((ValueIdx.contrEquiv1 dot_S100000x64_S64x1_S100000x1_1_0_0_1_n_n 64 rfl rfl).symm k) = ix2 k (0 : Fin 1) := funext fun a => Fin.ext (by
    match a with
    | ⟨0, _⟩ => exact (dot_S100000x64_S64x1_S100000x1_1_0_0_1_n_n.rhsIdx_val_of_single rfl _ _).trans hk
    | ⟨1, _⟩ => exact prj_rhs1 _ _)
  rw [el, er]

/-! ## The three stages -/

/-- Every row of `x` scaled by that row's entry of the column `n`. -/
def scaleRows (x : FVec Ideal S100000x64 .f32) (n : FVec Ideal S100000x1 .f32) : FVec Ideal S100000x64 .f32 :=
  mulf x (broadcastInDim S100000x64 ![0, 1] bcast_S100000x1_S100000x64_0_1 n)

theorem scaleRows_apply (x : FVec Ideal S100000x64 .f32) (n : FVec Ideal S100000x1 .f32) (p : Fin 100000) (q : Fin 64) :
    scaleRows x n (ix2 p q) = x (ix2 p q) * n (ix2 p (0 : Fin 1)) := by
  unfold scaleRows
  rw [mulf_apply, colBcast_apply]

/-- The hidden layer and the projection of the second: rows of `a` scaled by `nin`, times `W1`, plus the bias row, clamped
    below at zero, scaled by `nout`, times the column `W2`. -/
def hiddenProj (a : FVec Ideal S100000x64 .f32) (nin nout : FVec Ideal S100000x1 .f32) (W1 : FVec Ideal S64x64 .f32)
    (b1row : FVec Ideal S1x64 .f32) (W2 : FVec Ideal S64x1 .f32) : FVec Ideal S100000x1 .f32 :=
  Host.dotGeneral dot_S100000x64_S64x1_S100000x1_1_0_0_1_n_n none
    (mulf (maximumf (addf (Host.dotGeneral dot_S100000x64_S64x64_S100000x64_1_0_0_1_n_n none
          (mulf a (broadcastInDim S100000x64 ![0, 1] bcast_S100000x1_S100000x64_0_1 nin)) W1)
        (broadcastInDim S100000x64 ![0, 1] bcast_S1x64_S100000x64_0_1 b1row))
      (broadcastInDim S100000x64 ![] bcast_S_S100000x64 (constant S_ .f32 0x00000000#32)))
      (broadcastInDim S100000x64 ![0, 1] bcast_S100000x1_S100000x64_0_1 nout)) W2

/-- The zero array read anywhere is the word 0.0. -/
theorem zeros_apply (i : S100000x64.Idx) :
    broadcastInDim S100000x64 ![] bcast_S_S100000x64 (constant (F := Ideal) S_ .f32 0x00000000#32) i = Ideal.ofBits .f32 0x00000000#32 :=
  broadcastInDim_apply _ bcast_S_S100000x64 (constant (F := Ideal) S_ .f32 0x00000000#32) i (fun a => a.elim0) (fun a => a.elim0)

theorem hiddenProj_apply (a : FVec Ideal S100000x64 .f32) (nin nout : FVec Ideal S100000x1 .f32) (W1 : FVec Ideal S64x64 .f32)
    (b1row : FVec Ideal S1x64 .f32) (W2 : FVec Ideal S64x1 .f32) (p : Fin 100000) :
    hiddenProj a nin nout W1 b1row W2 (ix2 p (0 : Fin 1))
      = ∑ k : Fin 64, (max ((∑ j : Fin 64, (a (ix2 p j) * nin (ix2 p (0 : Fin 1))) * W1 (ix2 j k)) + b1row (ix2 (0 : Fin 1) k))
            (Ideal.ofBits .f32 0x00000000#32) * nout (ix2 p (0 : Fin 1))) * W2 (ix2 k (0 : Fin 1)) := by
  unfold hiddenProj
  rw [dotProj_apply]
  refine Finset.sum_congr rfl fun k _ => ?_
  rw [mulf_apply, maximumf_apply, addf_apply, colBcast_apply, rowBcast_apply, zeros_apply, dotHidden_apply]
  refine congrArg (fun z => (max (z + b1row (ix2 (0 : Fin 1) k)) (Ideal.ofBits .f32 0x00000000#32) * nout (ix2 p (0 : Fin 1))) * W2 (ix2 k (0 : Fin 1))) ?_
  refine Finset.sum_congr rfl fun j _ => ?_
  rw [mulf_apply, colBcast_apply]

/-- The output layer's probability: the logistic function of `a · nin + b2`, spelt 1 / (1 + exp(-v)). -/
def outProb (a nin : FVec Ideal S100000x1 .f32) (b2row : FVec Ideal S1x1 .f32) : FVec Ideal S100000x1 .f32 :=
  Host.divf (broadcastInDim S100000x1 ![] bcast_S_S100000x1 (constant S_ .f32 0x3F800000#32))
    (addf (broadcastInDim S100000x1 ![] bcast_S_S100000x1 (constant S_ .f32 0x3F800000#32))
      (Host.exp (Host.negf (addf (mulf a nin) (broadcastInDim S100000x1 ![0, 1] bcast_S1x1_S100000x1_0_1 b2row)))))

/-- The all-ones column read anywhere is 1. -/
theorem ones_apply (i : S100000x1.Idx) :
    broadcastInDim S100000x1 ![] bcast_S_S100000x1 (constant (F := Ideal) S_ .f32 0x3F800000#32) i = 1 :=
  (broadcastInDim_apply _ bcast_S_S100000x1 (constant (F := Ideal) S_ .f32 0x3F800000#32) i (fun a => a.elim0) (fun a => a.elim0)).trans one_f32

theorem outProb_apply (a nin : FVec Ideal S100000x1 .f32) (b2row : FVec Ideal S1x1 .f32) (p : Fin 100000) :
    outProb a nin b2row (ix2 p (0 : Fin 1))
      = Ideal.logistic (a (ix2 p (0 : Fin 1)) * nin (ix2 p (0 : Fin 1)) + b2row (ix2 (0 : Fin 1) (0 : Fin 1))) := by
  unfold outProb
  show Ideal.div (broadcastInDim S100000x1 ![] bcast_S_S100000x1 (constant (F := Ideal) S_ .f32 0x3F800000#32) (ix2 p (0 : Fin 1)))
      (broadcastInDim S100000x1 ![] bcast_S_S100000x1 (constant (F := Ideal) S_ .f32 0x3F800000#32) (ix2 p (0 : Fin 1))
        + Ideal.exp (-(a (ix2 p (0 : Fin 1)) * nin (ix2 p (0 : Fin 1))
            + broadcastInDim S100000x1 ![0, 1] bcast_S1x1_S100000x1_0_1 b2row (ix2 p (0 : Fin 1))))) = _
  rw [ones_apply, unitBcast_apply]
  rfl

end Cert.GraphConv

end
-- ==== Proof.Chain.lean ====
/-
  The graph convolution's edge chains, and the whole network as a composition.

  Besides the three dense stages, the network applies to its node arrays operations that follow the graph's edges; both
  programs spell them with the same host operations, so they are carried here as opaque functions of their operands:
    * `degNorm idx`   : the column  deg^(-1/2)  of the degrees counted from an edge-endpoint array (1 where the degree is 0);
    * `edgeIndex s`   : the source endpoints as gather indices (a negative index counted from the end);
    * `aggRows h s d` : for every node the sum, over the edges arriving at it, of the row of `h` at the edge's source
                        (a gather at the sources followed by a scatter-addition at the destinations), on [N,64] arrays;
    * `aggCol h s d`  : the same on [N,1] columns.
  `network` is the two-layer graph convolution with a logistic output: scale the features by the out-degree norm,
  aggregate, apply the hidden layer and the projection of the second layer, aggregate again, scale by the in-degree norm,
  add the bias and take the logistic function.
-/
import proofs.«135483_j55594056680044_1_alg».proof.Proof.Stages

noncomputable section

namespace Cert.GraphConv

open Cert.ReferenceIdeal Cert.ReferenceIdeal.Gen Idealize.ShloMosaic

/-- The degree of every node counted from one endpoint array, replaced by 1 where it is 0, to the power -1/2, as a column. -/
def degNorm (idx : IVec S1600000 32) : FVec Ideal S100000x1 .f32 :=
  broadcastInDim S100000x1 ![0] bcast_S100000_S100000x1_0 (Host.powf (select (cmpf (F := Ideal) .ogt (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32))) (broadcastInDim S100000 ![] bcast_S_S100000 (constant S_ .f32 0x00000000#32))) (Host.scatterAdd scatter_S100000_S1600000x1_S1600000_n_0_0_1 (broadcastInDim S100000 ![] bcast_S_S100000 (constant S_ .f32 0x00000000#32)) (broadcastInDim S1600000x1 ![0] bcast_S1600000_S1600000x1_0 idx) (broadcastInDim S1600000 ![] bcast_S_S1600000 (constant S_ .f32 0x3F800000#32))) (broadcastInDim S100000 ![] bcast_S_S100000 (id (constant S_ .f32 0x3F800000#32)))) (broadcastInDim S100000 ![] bcast_S_S100000 (constant S_ .f32 0xBF000000#32)))

/-- The source endpoints as row indices: a negative one is counted from the end of the 100000 rows. -/
def edgeIndex (s : IVec S1600000 32) : IVec S1600000x1 32 :=
  broadcastInDim S1600000x1 ![0] bcast_S1600000_S1600000x1_0 (select (cmpi .slt s (broadcastInDim S1600000 ![] bcast_S_S1600000 (constantI S_ 32 0#32))) (addi s (broadcastInDim S1600000 ![] bcast_S_S1600000 (constantI S_ 32 100000#32))) s)

/-- Rows of `h` gathered at the edges' sources and added up at the edges' destinations. -/
def aggRows (h : FVec Ideal S100000x64 .f32) (s d : IVec S1600000 32) : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 d) (Host.gather gather_S100000x64_S1600000x1_S1600000x64_1_0_n_n_0_1_164 h (edgeIndex s))

/-- Entries of the column `h` gathered at the edges' sources and added up at the edges' destinations. -/
def aggCol (h : FVec Ideal S100000x1 .f32) (s d : IVec S1600000 32) : FVec Ideal S100000x1 .f32 :=
  Host.scatterAdd scatter_S100000x1_S1600000x1_S1600000x1_1_0_0_1 (broadcastInDim S100000x1 ![] bcast_S_S100000x1 (constant S_ .f32 0x00000000#32)) (broadcastInDim S1600000x1 ![0] bcast_S1600000_S1600000x1_0 d) (Host.gather gather_S100000x1_S1600000x1_S1600000x1_1_0_n_n_0_1_11 h (edgeIndex s))

/-- The bias vector of the hidden layer as a [1,64] row, and the output bias as a [1,1] array. -/
def biasRow (b1 : FVec Ideal S64 .f32) : FVec Ideal S1x64 .f32 := broadcastInDim S1x64 ![1] bcast_S64_S1x64_1 b1
def biasUnit (b2 : FVec Ideal S1 .f32) : FVec Ideal S1x1 .f32 := broadcastInDim S1x1 ![1] bcast_S1_S1x1_1 b2

/-- The network's output as a function of its seven inputs. -/
def network (x : FVec Ideal S100000x64 .f32) (s d : IVec S1600000 32) (W1 : FVec Ideal S64x64 .f32) (b1 : FVec Ideal S64 .f32)
    (W2 : FVec Ideal S64x1 .f32) (b2 : FVec Ideal S1 .f32) : FVec Ideal S100000x1 .f32 :=
  outProb (aggCol (hiddenProj (aggRows (scaleRows x (degNorm s)) s d) (degNorm d) (degNorm s) W1 (biasRow b1) W2) s d)
    (degNorm d) (biasUnit b2)

end Cert.GraphConv

end
-- ==== Proof.RefValue.lean ====
/-
  The reference program computes `network` of its arguments: its run's result term is, operation for operation, the
  composition of the three dense stages with the degree norms and the two edge aggregations.
-/
import proofs.«135483_j55594056680044_1_alg».proof.Proof.ReferenceRun
import proofs.«135483_j55594056680044_1_alg».proof.Proof.Chain

noncomputable section

namespace Cert.ReferenceIdeal.RefValue

open Cert.ReferenceIdeal Cert.ReferenceIdeal.Gen Idealize.ShloMosaic Idealize.ShloMosaic.TcCoe Idealize.SL.Sem Cert.GraphConv

set_option maxRecDepth 8192 in
/-- The reference's result array is the network's output of the argument arrays. -/
theorem result_eq (m : (ℓ : Loc nD τ sig) → Buf (Elt Ideal) ℓ) (c : Dev nD) :
    Cert.ReferenceIdeal.RunP.res_main_v79 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Cert.ReferenceIdeal.RunP.res_main_v79 network outProb aggCol hiddenProj aggRows scaleRows degNorm edgeIndex biasRow biasUnit
  rfl

end Cert.ReferenceIdeal.RefValue

end
-- ==== Proof.KernelNamed.lean ====
/-
  The kernel program's run with its result array named.

  @main is ten segments: five stretches of host operations, pallas_call 0, a stretch, pallas_call 1, a stretch, pallas_call 2.
  Every weakly fair execution terminates without a fault, and in the final state every unscoped buffer of a core holds the
  contents the segments' fold from the launch memory gives it (`W10`): in particular the result array, and each argument
  array, which no segment writes.
-/
import proofs.«135483_j55594056680044_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v43 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Named

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.Bodies.lean ====
/-
  What each of the three kernel bodies stores, entry by entry, as a function of the blocks it loads.

  A body sees one tile of 5000 node rows. At Ideal a change of float format is the identity and a matrix product
  into a zero accumulator is the plain sum over its one contracted axis, so:
    * the scaling body stores       xb q r · nb q ;
    * the hidden-layer body stores  Σ_k max(Σ_j (ab q j · ninb q) · W1 j k + b1 k, 0) · noutb q · W2 k ;
    * the output body stores        logistic(ab q · ninb q + b2) .
  A [5000,1] column broadcast to [5000,64] reads the column at the row, a [1,64] row broadcast to [5000,64] reads the row
  at the column, and a shape cast to the same shape is the identity.
-/
import proofs.«135483_j55594056680044_1_alg».proof.Proof.Gen.KernelIdeal.Skeleton
import proofs.«135483_j55594056680044_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx

/-! ## The two matrix products of the hidden-layer body read at an index -/

theorem hid_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem hid_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The [5000,64] × [64,64] product into a zero accumulator, at (q, c): the sum over the 64 features. -/
theorem mmHidden_apply (l : FVec Ideal S5000x64 .bf16) (r : FVec Ideal S64x64 .bf16) (q : Fin 5000) (c : Fin 64) :
    matmul dot_S5000x64_S64x64_S5000x64_1_0_0_1_n_n none l r (constant S5000x64 .f32 0x00000000#32) (ix2 q c) = ∑ k : Fin 64, l (ix2 q k) * r (ix2 k c) := by
  refine (Ideal.matmul_constant_zero_apply dot_S5000x64_S64x64_S5000x64_1_0_0_1_n_n none l r (ix2 q c)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 q c) ((ValueIdx.contrEquiv1 dot_S5000x64_S64x64_S5000x64_1_0_0_1_n_n 64 rfl rfl).symm k) = ix2 q k := funext fun a => Fin.ext (by
    match a with
    | ⟨0, _⟩ => exact hid_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 q c) ((ValueIdx.contrEquiv1 dot_S5000x64_S64x64_S5000x64_1_0_0_1_n_n 64 rfl rfl).symm k) = ix2 k c := funext fun a => Fin.ext (by
    match a with
    | ⟨0, _⟩ => exact (dot_S5000x64_S64x64_S5000x64_1_0_0_1_n_n.rhsIdx_val_of_single rfl _ _).trans hk
    | ⟨1, _⟩ => exact hid_rhs1 _ _)
  rw [el, er]

theorem prj_lhs0 (i : S5000x1.Idx) (q : dot_S5000x64_S64x1_S5000x1_1_0_0_1_n_n.contr.Idx) : (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
theorem prj_rhs1 (i : S5000x1.Idx) (q : dot_S5000x64_S64x1_S5000x1_1_0_0_1_n_n.contr.Idx) : (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- The [5000,64] × [64,1] product into a zero accumulator, at (q, 0): the sum over the 64 features. -/
theorem mmProj_apply (l : FVec Ideal S5000x64 .bf16) (r : FVec Ideal S64x1 .bf16) (q : Fin 5000) :
    matmul dot_S5000x64_S64x1_S5000x1_1_0_0_1_n_n none l r (constant S5000x1 .f32 0x00000000#32) (ix2 q (0 : Fin 1)) = ∑ k : Fin 64, l (ix2 q k) * r (ix2 k (0 : Fin 1)) := by
  refine (Ideal.matmul_constant_zero_apply dot_S5000x64_S64x1_S5000x1_1_0_0_1_n_n none l r (ix2 q (0 : Fin 1))).trans ?_
  rw [← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 q (0 : Fin 1)) ((ValueIdx.contrEquiv1 dot_S5000x64_S64x1_S5000x1_1_0_0_1_n_n 64 rfl rfl).symm k) = ix2 q k := funext fun a => Fin.ext (by
    match a with
    | ⟨0, _⟩ => exact prj_lhs0 _ _
    | ⟨1, _⟩ => exact (dot_S5000x64_S64x1_S5000x1_1_0_0_1_n_n.lhsIdx_val_of_single rfl _ _).trans hk)
  have er : dot_S5000x64_S64x1_S5000x1_1_0_0_1_n_n.rhsIdx (ix2 q (0 : Fin 1)) ((ValueIdx.contrEquiv1 dot_S5000x64_S64x1_S5000x1_1_0_0_1_n_n 64 rfl rfl).symm k) = ix2 k (0 : Fin 1) := funext fun a => Fin.ext (by
    match a with
    | ⟨0, _⟩ => exact (dot_S5000x64_S64x1_S5000x1_1_0_0_1_n_n.rhsIdx_val_of_single rfl _ _).trans hk
    | ⟨1, _⟩ => exact prj_rhs1 _ _)
  rw [el, er]

/-! ## The three bodies -/

/-- The scaling body: each entry of the x tile times its row's entry of the column tile. -/
theorem scaleBody_apply (xb : Vec Ideal S5000x64 .f32) (nb : Vec Ideal S5000x1 .f32) (q : Fin 5000) (r : Fin 64) :
    k0_pay1 xb nb (ix2 q r) = xb (ix2 q r) * nb (ix2 q (0 : Fin 1)) := by
  unfold k0_pay1
  rw [mulf_apply, shapeCast_self]
  exact congrArg (xb (ix2 q r) * ·) (Keepdims.broadcastTo_a1_ab_apply nb broadcasts_S5000x1_S5000x64 q r)

/-- The hidden-layer body. -/
theorem midBody_apply (ab : Vec Ideal S5000x64 .f32) (ninb : Vec Ideal S5000x1 .f32) (W1 : Vec Ideal S64x64 .f32)
    (b1r : Vec Ideal S1x64 .f32) (noutb : Vec Ideal S5000x1 .f32) (W2 : Vec Ideal S64x1 .f32) (q : Fin 5000) :
    k1_pay1 ab ninb W1 b1r noutb W2 (ix2 q (0 : Fin 1))
      = ∑ k : Fin 64, (max ((∑ j : Fin 64, (ab (ix2 q j) * ninb (ix2 q (0 : Fin 1))) * W1 (ix2 j k)) + b1r (ix2 (0 : Fin 1) k))
            (Ideal.ofBits .f32 0x00000000#32) * noutb (ix2 q (0 : Fin 1))) * W2 (ix2 k (0 : Fin 1)) := by
  unfold k1_pay1
  rw [mmProj_apply]
  refine Finset.sum_congr rfl fun k _ => ?_
  rw [truncf_apply, truncf_apply, mulf_apply, maximumf_apply, addf_apply, mmHidden_apply, shapeCast_self, shapeCast_self,
    shapeCast_self, shapeCast_self, Keepdims.broadcastTo_a1_ab_apply, broadcastTo_1b_ab_apply]
  refine congrArg (fun z => (max (z + b1r (ix2 (0 : Fin 1) k)) (Ideal.ofBits .f32 0x00000000#32) * noutb (ix2 q (0 : Fin 1))) * W2 (ix2 k (0 : Fin 1))) ?_
  refine Finset.sum_congr rfl fun j _ => ?_
  rw [truncf_apply, truncf_apply, mulf_apply, Keepdims.broadcastTo_a1_ab_apply]

/-- The output body: the logistic function of the product plus the bias. -/
theorem finalBody_apply (ab ninb : Vec Ideal S5000x1 .f32) (b2r : Vec Ideal S1x1 .f32) (q : Fin 5000) :
    k2_pay1 ab ninb b2r (ix2 q (0 : Fin 1))
      = Ideal.logistic (ab (ix2 q (0 : Fin 1)) * ninb (ix2 q (0 : Fin 1)) + b2r (ix2 (0 : Fin 1) (0 : Fin 1))) := by
  unfold k2_pay1
  rw [shapeCast_self, shapeCast_self, shapeCast_self]
  show Ideal.logistic (ab (ix2 q (0 : Fin 1)) * ninb (ix2 q (0 : Fin 1)) + broadcastTo S5000x1 b2r broadcasts_S1x1_S5000x1 (ix2 q (0 : Fin 1))) = _
  rw [broadcastTo_1b_ab_apply]

end Cert.KernelIdeal.Bodies

end
-- ==== Proof.Points.lean ====
/-
  Each kernel body against its dense stage, one tile row at a time.

  If a tile holds rows of the operand arrays — tile row q is array row p — then what the body stores at tile row q is the
  stage's value at array row p: the scaling body against `scaleRows`, the hidden-layer body against `hiddenProj` (its two
  contractions run over the same 64 features, in the same order, on both sides), the output body against `outProb`
  (the kernel's one logistic operation is 1 / (1 + exp(-v)) on the extended reals).
-/
import proofs.«135483_j55594056680044_1_alg».proof.Proof.Stages
import proofs.«135483_j55594056680044_1_alg».proof.Proof.Bodies

noncomputable section

namespace Cert.KernelIdeal.Points

open Idealize.ShloMosaic Idealize.ShloMosaic.ValueIdx Cert.GraphConv Cert.KernelIdeal.Bodies

theorem scale_point (x : FVec Ideal Cert.ReferenceIdeal.S100000x64 .f32) (n : FVec Ideal Cert.ReferenceIdeal.S100000x1 .f32)
    (xb : Vec Ideal Cert.KernelIdeal.S5000x64 .f32) (nb : Vec Ideal Cert.KernelIdeal.S5000x1 .f32)
    (q : Fin 5000) (r : Fin 64) (p : Fin 100000)
    (hx : xb (ix2 q r) = x (ix2 p r)) (hn : nb (ix2 q (0 : Fin 1)) = n (ix2 p (0 : Fin 1))) :
    Cert.KernelIdeal.Gen.k0_pay1 xb nb (ix2 q r) = scaleRows x n (ix2 p r) := by
  rw [scaleBody_apply, scaleRows_apply, hx, hn]

theorem mid_point (a : FVec Ideal Cert.ReferenceIdeal.S100000x64 .f32) (nin nout : FVec Ideal Cert.ReferenceIdeal.S100000x1 .f32)
    (W1 : FVec Ideal Cert.ReferenceIdeal.S64x64 .f32) (b1row : FVec Ideal Cert.ReferenceIdeal.S1x64 .f32) (W2 : FVec Ideal Cert.ReferenceIdeal.S64x1 .f32)
    (ab : Vec Ideal Cert.KernelIdeal.S5000x64 .f32) (ninb : Vec Ideal Cert.KernelIdeal.S5000x1 .f32) (W1b : Vec Ideal Cert.KernelIdeal.S64x64 .f32)
    (b1b : Vec Ideal Cert.KernelIdeal.S1x64 .f32) (noutb : Vec Ideal Cert.KernelIdeal.S5000x1 .f32) (W2b : Vec Ideal Cert.KernelIdeal.S64x1 .f32)
    (q : Fin 5000) (p : Fin 100000)
    (h0 : ∀ j : Fin 64, ab (ix2 q j) = a (ix2 p j)) (h1 : ninb (ix2 q (0 : Fin 1)) = nin (ix2 p (0 : Fin 1)))
    (h2 : noutb (ix2 q (0 : Fin 1)) = nout (ix2 p (0 : Fin 1))) (h3 : ∀ j k : Fin 64, W1b (ix2 j k) = W1 (ix2 j k))
    (h4 : ∀ k : Fin 64, b1b (ix2 (0 : Fin 1) k) = b1row (ix2 (0 : Fin 1) k)) (h5 : ∀ k : Fin 64, W2b (ix2 k (0 : Fin 1)) = W2 (ix2 k (0 : Fin 1))) :
    Cert.KernelIdeal.Gen.k1_pay1 ab ninb W1b b1b noutb W2b (ix2 q (0 : Fin 1)) = hiddenProj a nin nout W1 b1row W2 (ix2 p (0 : Fin 1)) := by
  rw [midBody_apply, hiddenProj_apply]
  simp only [h0, h1, h2, h3, h4, h5]

theorem final_point (a nin : FVec Ideal Cert.ReferenceIdeal.S100000x1 .f32) (b2row : FVec Ideal Cert.ReferenceIdeal.S1x1 .f32)
    (ab ninb : Vec Ideal Cert.KernelIdeal.S5000x1 .f32) (b2b : Vec Ideal Cert.KernelIdeal.S1x1 .f32) (q : Fin 5000) (p : Fin 100000)
    (h0 : ab (ix2 q (0 : Fin 1)) = a (ix2 p (0 : Fin 1))) (h1 : ninb (ix2 q (0 : Fin 1)) = nin (ix2 p (0 : Fin 1)))
    (h2 : b2b (ix2 (0 : Fin 1) (0 : Fin 1)) = b2row (ix2 (0 : Fin 1) (0 : Fin 1))) :
    Cert.KernelIdeal.Gen.k2_pay1 ab ninb b2b (ix2 q (0 : Fin 1)) = outProb a nin b2row (ix2 p (0 : Fin 1)) := by
  rw [finalBody_apply, outProb_apply, h0, h1, h2]

end Cert.KernelIdeal.Points

end
-- ==== Proof.Blocks.lean ====
/-
  From blocks to arrays: what each of the three pallas_calls leaves in its output array.

  Every pallas_call runs over 20 grid points; at point `t` a window over node rows holds rows 5000 t … 5000 t + 4999 of its
  array, and a window over a weight or bias array holds the whole of it. What the body stores at tile row q is therefore
  the dense stage's value at array row 5000 t + q (the per-row lemmas), so the block a point writes back is a block of ONE
  whole-array function; the 20 blocks tile the output array (row r lies in block r / 5000), hence after the pallas_call the
  output array IS that function of the arrays the call was entered with. Stated for arbitrary entry contents `V`.
-/
import proofs.«135483_j55594056680044_1_alg».proof.Proof.Gen.KernelIdeal.Frame
import proofs.«135483_j55594056680044_1_alg».proof.Proof.Points
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.GraphConv Cert.KernelIdeal.Points

variable (V : (c : Dev nD) → (b : Ref sig .tc) → Buf (Elt Ideal) ((c : Thread nD τ).loc b))

theorem hz : (![0, 0] : Fin 2 → Nat) = fun _ => 0 := funext fun a => by fin_cases a <;> rfl

/-! ## pallas_call 0: the features scaled by the out-degree norm -/

/-- The printed index maps of pallas_call 0, decided over its 20 grid points: a window over node rows takes block row `t` at point `t`,
    a window over a whole weight or bias array stays at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Window 0 of pallas_call 0: entry (q, r) of the block at point `t` is entry (5000 t + q, r) of its array. -/
theorem emb0_0 (t : Fin cfg0.N) (q : Fin 5000) (r : Fin 64) (p : Fin 100000) (hp : p.val = t.val * 5000 + q.val) :
    (((cfg0.win 0).blk t).view.emb (ix2 q r) : S100000x64.Idx) = ix2 p r := by
  obtain ⟨e0a, e0b, e1a, e1b, e2a, e2b⟩ := idx0 t
  funext a; apply Fin.ext
  match a with
  | ⟨0, _⟩ => show win0_0.index t (0 : Fin 2) * 5000 + 1 * q.val = p.val; omega
  | ⟨1, _⟩ => show win0_0.index t (1 : Fin 2) * 64 + 1 * r.val = r.val; omega

/-- Window 1 of pallas_call 0: entry (q, r) of the block at point `t` is entry (5000 t + q, r) of its array. -/
theorem emb0_1 (t : Fin cfg0.N) (q : Fin 5000) (r : Fin 1) (p : Fin 100000) (hp : p.val = t.val * 5000 + q.val) :
    (((cfg0.win 1).blk t).view.emb (ix2 q r) : S100000x1.Idx) = ix2 p r := by
  obtain ⟨e0a, e0b, e1a, e1b, e2a, e2b⟩ := idx0 t
  funext a; apply Fin.ext
  match a with
  | ⟨0, _⟩ => show win0_1.index t (0 : Fin 2) * 5000 + 1 * q.val = p.val; omega
  | ⟨1, _⟩ => show win0_1.index t (1 : Fin 2) * 1 + 1 * r.val = r.val; omega

/-- Window 2 of pallas_call 0: entry (q, r) of the block at point `t` is entry (5000 t + q, r) of its array. -/
theorem emb0_2 (t : Fin cfg0.N) (q : Fin 5000) (r : Fin 64) (p : Fin 100000) (hp : p.val = t.val * 5000 + q.val) :
    (((cfg0.win 2).blk t).view.emb (ix2 q r) : S100000x64.Idx) = ix2 p r := by
  obtain ⟨e0a, e0b, e1a, e1b, e2a, e2b⟩ := idx0 t
  funext a; apply Fin.ext
  match a with
  | ⟨0, _⟩ => show win0_2.index t (0 : Fin 2) * 5000 + 1 * q.val = p.val; omega
  | ⟨1, _⟩ => show win0_2.index t (1 : Fin 2) * 64 + 1 * r.val = r.val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v19).slice (win0_2.rect t)).set ↔ _
  rw [View.set_slice_whole, Rect.mem_set_unit]
  exact Iff.rfl

/-- The 20 blocks of 5000 rows tile the output array: row r lies in the block of point r / 5000. -/
theorem cover0 (i : S100000x64.Idx) : ∃ t : Fin cfg0.N, (cfg0.win 2).flush t = true ∧ i ∈ ((cfg0.win 2).blk t).view.set := by
  have hN : cfg0.N = 20 := N_0
  have hi0 : (i 0).val < 100000 := (i 0).isLt
  have hi1 : (i 1).val < 64 := (i 1).isLt
  have ht : (i 0).val / 5000 < cfg0.N := by rw [hN]; omega
  obtain ⟨e0a, e0b, e1a, e1b, e2a, e2b⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e2a]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val ∧ (i 1).val < win0_2.index ⟨(i 0).val / 5000, ht⟩ (1 : Fin 2) * 64 + 64
    rw [e2b]; omega

/-- What point `t` of pallas_call 0 writes back is block `t` of the features with every row scaled by its entry of the column. -/
theorem flushed0 (c : Dev nD) (t : Fin cfg0.N) :
    (dat0 V c).flushed 2 t = ((cfg0.win 2).blk t).view.read (Elt Ideal) (scaleRows (V c main_arg0) (V c main_v17)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  funext j
  obtain ⟨q, r, rfl⟩ : ∃ (q : Fin 5000) (r : Fin 64), j = ix2 q r := ⟨j 0, j 1, eq_ix2 j⟩
  have hN : cfg0.N = 20 := N_0
  have ht : t.val < 20 := hN ▸ t.isLt
  have hq : q.val < 5000 := q.isLt
  obtain ⟨p, hp⟩ : ∃ p : Fin 100000, p.val = t.val * 5000 + q.val := ⟨⟨t.val * 5000 + q.val, by omega⟩, rfl⟩
  show k0_pay1 (iblk0 V c 0 t) (iblk0 V c 1 t) (ix2 q r) = scaleRows (V c main_arg0) (V c main_v17) (((cfg0.win 2).blk t).view.emb (ix2 q r) : S100000x64.Idx)
  rw [emb0_2 t q r p hp]
  refine scale_point (V c main_arg0) (V c main_v17) (iblk0 V c 0 t) (iblk0 V c 1 t) q r p ?_ ?_
  · show V c main_arg0 (((cfg0.win 0).blk t).view.emb (ix2 q r) : S100000x64.Idx) = _
    rw [emb0_0 t q r p hp]
  · show V c main_v17 (((cfg0.win 1).blk t).view.emb (ix2 q (0 : Fin 1)) : S100000x1.Idx) = _
    rw [emb0_1 t q (0 : Fin 1) p hp]

/-- After pallas_call 0 its output array holds the scaled features, whatever the arrays it was entered with. -/
theorem final0 (c : Dev nD) : (dat0 V c).arrAt 2 cfg0.N = scaleRows (V c main_arg0) (V c main_v17) :=
  (dat0 V c).arrAt_eq_of_cover 2 _ (fun t _ => flushed0 V c t) cover0

/-! ## pallas_call 1: the hidden layer and the second layer's projection -/

/-- The printed index maps of pallas_call 1, decided over its 20 grid points: a window over node rows takes block row `t` at point `t`,
    a window over a whole weight or bias array stays at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0 of pallas_call 1: entry (q, r) of the block at point `t` is entry (5000 t + q, r) of its array. -/
theorem emb1_0 (t : Fin cfg1.N) (q : Fin 5000) (r : Fin 64) (p : Fin 100000) (hp : p.val = t.val * 5000 + q.val) :
    (((cfg1.win 0).blk t).view.emb (ix2 q r) : S100000x64.Idx) = ix2 p r := by
  obtain ⟨e0a, e0b, e1a, e1b, e2a, e2b, e3a, e3b, e4a, e4b, e5a, e5b, e6a, e6b⟩ := idx1 t
  funext a; apply Fin.ext
  match a with
  | ⟨0, _⟩ => show win1_0.index t (0 : Fin 2) * 5000 + 1 * q.val = p.val; omega
  | ⟨1, _⟩ => show win1_0.index t (1 : Fin 2) * 64 + 1 * r.val = r.val; omega

/-- Window 1 of pallas_call 1: entry (q, r) of the block at point `t` is entry (5000 t + q, r) of its array. -/
theorem emb1_1 (t : Fin cfg1.N) (q : Fin 5000) (r : Fin 1) (p : Fin 100000) (hp : p.val = t.val * 5000 + q.val) :
    (((cfg1.win 1).blk t).view.emb (ix2 q r) : S100000x1.Idx) = ix2 p r := by
  obtain ⟨e0a, e0b, e1a, e1b, e2a, e2b, e3a, e3b, e4a, e4b, e5a, e5b, e6a, e6b⟩ := idx1 t
  funext a; apply Fin.ext
  match a with
  | ⟨0, _⟩ => show win1_1.index t (0 : Fin 2) * 5000 + 1 * q.val = p.val; omega
  | ⟨1, _⟩ => show win1_1.index t (1 : Fin 2) * 1 + 1 * r.val = r.val; omega

/-- Window 2 of pallas_call 1: entry (q, r) of the block at point `t` is entry (5000 t + q, r) of its array. -/
theorem emb1_2 (t : Fin cfg1.N) (q : Fin 5000) (r : Fin 1) (p : Fin 100000) (hp : p.val = t.val * 5000 + q.val) :
    (((cfg1.win 2).blk t).view.emb (ix2 q r) : S100000x1.Idx) = ix2 p r := by
  obtain ⟨e0a, e0b, e1a, e1b, e2a, e2b, e3a, e3b, e4a, e4b, e5a, e5b, e6a, e6b⟩ := idx1 t
  funext a; apply Fin.ext
  match a with
  | ⟨0, _⟩ => show win1_2.index t (0 : Fin 2) * 5000 + 1 * q.val = p.val; omega
  | ⟨1, _⟩ => show win1_2.index t (1 : Fin 2) * 1 + 1 * r.val = r.val; omega

/-- Window 3 of pallas_call 1: its one block is its whole array. -/
theorem emb1_3 (t : Fin cfg1.N) (q : Fin 64) (r : Fin 64) :
    (((cfg1.win 3).blk t).view.emb (ix2 q r) : S64x64.Idx) = ix2 q r := by
  obtain ⟨e0a, e0b, e1a, e1b, e2a, e2b, e3a, e3b, e4a, e4b, e5a, e5b, e6a, e6b⟩ := idx1 t
  funext a; apply Fin.ext
  match a with
  | ⟨0, _⟩ => show win1_3.index t (0 : Fin 2) * 64 + 1 * q.val = q.val; omega
  | ⟨1, _⟩ => show win1_3.index t (1 : Fin 2) * 64 + 1 * r.val = r.val; omega

/-- Window 4 of pallas_call 1: its one block is its whole array. -/
theorem emb1_4 (t : Fin cfg1.N) (q : Fin 1) (r : Fin 64) :
    (((cfg1.win 4).blk t).view.emb (ix2 q r) : S1x64.Idx) = ix2 q r := by
  obtain ⟨e0a, e0b, e1a, e1b, e2a, e2b, e3a, e3b, e4a, e4b, e5a, e5b, e6a, e6b⟩ := idx1 t
  funext a; apply Fin.ext
  match a with
  | ⟨0, _⟩ => show win1_4.index t (0 : Fin 2) * 1 + 1 * q.val = q.val; omega
  | ⟨1, _⟩ => show win1_4.index t (1 : Fin 2) * 64 + 1 * r.val = r.val; omega

/-- Window 5 of pallas_call 1: its one block is its whole array. -/
theorem emb1_5 (t : Fin cfg1.N) (q : Fin 64) (r : Fin 1) :
    (((cfg1.win 5).blk t).view.emb (ix2 q r) : S64x1.Idx) = ix2 q r := by
  obtain ⟨e0a, e0b, e1a, e1b, e2a, e2b, e3a, e3b, e4a, e4b, e5a, e5b, e6a, e6b⟩ := idx1 t
  funext a; apply Fin.ext
  match a with
  | ⟨0, _⟩ => show win1_5.index t (0 : Fin 2) * 64 + 1 * q.val = q.val; omega
  | ⟨1, _⟩ => show win1_5.index t (1 : Fin 2) * 1 + 1 * r.val = r.val; omega

/-- Window 6 of pallas_call 1: entry (q, r) of the block at point `t` is entry (5000 t + q, r) of its array. -/
theorem emb1_6 (t : Fin cfg1.N) (q : Fin 5000) (r : Fin 1) (p : Fin 100000) (hp : p.val = t.val * 5000 + q.val) :
    (((cfg1.win 6).blk t).view.emb (ix2 q r) : S100000x1.Idx) = ix2 p r := by
  obtain ⟨e0a, e0b, e1a, e1b, e2a, e2b, e3a, e3b, e4a, e4b, e5a, e5b, e6a, e6b⟩ := idx1 t
  funext a; apply Fin.ext
  match a with
  | ⟨0, _⟩ => show win1_6.index t (0 : Fin 2) * 5000 + 1 * q.val = p.val; omega
  | ⟨1, _⟩ => show win1_6.index t (1 : Fin 2) * 1 + 1 * r.val = r.val; omega

/-- An index of the output array is in point `t`'s block iff each coordinate is in the block's range on its axis. -/
theorem mem_blk1 (t : Fin cfg1.N) (i : S100000x1.Idx) :
    i ∈ ((cfg1.win 6).blk t).view.set ↔ ∀ a : Fin 2, win1_6.index t a * S5000x1.size a ≤ (i a).val ∧ (i a).val < win1_6.index t a * S5000x1.size a + S5000x1.size a := by
  show i ∈ ((View.whole main_v31).slice (win1_6.rect t)).set ↔ _
  rw [View.set_slice_whole, Rect.mem_set_unit]
  exact Iff.rfl

/-- The 20 blocks of 5000 rows tile the output array: row r lies in the block of point r / 5000. -/
theorem cover1 (i : S100000x1.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 1 := (i 1).isLt
  have ht : (i 0).val / 5000 < cfg1.N := by rw [hN]; omega
  obtain ⟨e0a, e0b, e1a, e1b, e2a, e2b, e3a, e3b, e4a, e4b, e5a, e5b, e6a, e6b⟩ := idx1 ⟨(i 0).val / 5000, ht⟩
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e6a]; show (i 0).val / 5000 * 5000 ≤ (i 0).val ∧ (i 0).val < (i 0).val / 5000 * 5000 + 5000; omega
  | ⟨1, _⟩ =>
    show win1_6.index ⟨(i 0).val / 5000, ht⟩ (1 : Fin 2) * 1 ≤ (i 1).val ∧ (i 1).val < win1_6.index ⟨(i 0).val / 5000, ht⟩ (1 : Fin 2) * 1 + 1
    rw [e6b]; omega

/-- What point `t` of pallas_call 1 writes back is block `t` of the hidden layer projected by the second layer's weights. -/
theorem flushed1 (c : Dev nD) (t : Fin cfg1.N) :
    (dat1 V c).flushed 6 t = ((cfg1.win 6).blk t).view.read (Elt Ideal)
      (hiddenProj (V c main_v29) (V c main_v18) (V c main_v17) (V c main_arg3) (V c main_v30) (V c main_arg5)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x1) hz]
  funext j
  obtain ⟨q, z, rfl⟩ : ∃ (q : Fin 5000) (z : Fin 1), j = ix2 q z := ⟨j 0, j 1, eq_ix2 j⟩
  obtain rfl : z = 0 := Subsingleton.elim _ _
  have hN : cfg1.N = 20 := N_1
  have ht : t.val < 20 := hN ▸ t.isLt
  have hq : q.val < 5000 := q.isLt
  obtain ⟨p, hp⟩ : ∃ p : Fin 100000, p.val = t.val * 5000 + q.val := ⟨⟨t.val * 5000 + q.val, by omega⟩, rfl⟩
  show k1_pay1 (iblk1 V c 0 t) (iblk1 V c 1 t) (iblk1 V c 3 t) (iblk1 V c 4 t) (iblk1 V c 2 t) (iblk1 V c 5 t) (ix2 q (0 : Fin 1))
    = hiddenProj (V c main_v29) (V c main_v18) (V c main_v17) (V c main_arg3) (V c main_v30) (V c main_arg5) (((cfg1.win 6).blk t).view.emb (ix2 q (0 : Fin 1)) : S100000x1.Idx)
  rw [emb1_6 t q (0 : Fin 1) p hp]
  refine mid_point (V c main_v29) (V c main_v18) (V c main_v17) (V c main_arg3) (V c main_v30) (V c main_arg5)
    (iblk1 V c 0 t) (iblk1 V c 1 t) (iblk1 V c 3 t) (iblk1 V c 4 t) (iblk1 V c 2 t) (iblk1 V c 5 t) q p ?_ ?_ ?_ ?_ ?_ ?_
  · intro k
    show V c main_v29 (((cfg1.win 0).blk t).view.emb (ix2 q k) : S100000x64.Idx) = _
    rw [emb1_0 t q k p hp]
  · show V c main_v18 (((cfg1.win 1).blk t).view.emb (ix2 q (0 : Fin 1)) : S100000x1.Idx) = _
    rw [emb1_1 t q (0 : Fin 1) p hp]
  · show V c main_v17 (((cfg1.win 2).blk t).view.emb (ix2 q (0 : Fin 1)) : S100000x1.Idx) = _
    rw [emb1_2 t q (0 : Fin 1) p hp]
  · intro k k'
    show V c main_arg3 (((cfg1.win 3).blk t).view.emb (ix2 k k') : S64x64.Idx) = _
    rw [emb1_3 t k k']
  · intro k
    show V c main_v30 (((cfg1.win 4).blk t).view.emb (ix2 (0 : Fin 1) k) : S1x64.Idx) = _
    rw [emb1_4 t (0 : Fin 1) k]
  · intro k
    show V c main_arg5 (((cfg1.win 5).blk t).view.emb (ix2 k (0 : Fin 1)) : S64x1.Idx) = _
    rw [emb1_5 t k (0 : Fin 1)]

/-- After pallas_call 1 its output column holds the projected hidden layer, whatever the arrays it was entered with. -/
theorem final1 (c : Dev nD) : (dat1 V c).arrAt 6 cfg1.N
    = hiddenProj (V c main_v29) (V c main_v18) (V c main_v17) (V c main_arg3) (V c main_v30) (V c main_arg5) :=
  (dat1 V c).arrAt_eq_of_cover 6 _ (fun t _ => flushed1 V c t) cover1

/-! ## pallas_call 2: the output probabilities -/

/-- The printed index maps of pallas_call 2, decided over its 20 grid points: a window over node rows takes block row `t` at point `t`,
    a window over a whole weight or bias array stays at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0 of pallas_call 2: entry (q, r) of the block at point `t` is entry (5000 t + q, r) of its array. -/
theorem emb2_0 (t : Fin cfg2.N) (q : Fin 5000) (r : Fin 1) (p : Fin 100000) (hp : p.val = t.val * 5000 + q.val) :
    (((cfg2.win 0).blk t).view.emb (ix2 q r) : S100000x1.Idx) = ix2 p r := by
  obtain ⟨e0a, e0b, e1a, e1b, e2a, e2b, e3a, e3b⟩ := idx2 t
  funext a; apply Fin.ext
  match a with
  | ⟨0, _⟩ => show win2_0.index t (0 : Fin 2) * 5000 + 1 * q.val = p.val; omega
  | ⟨1, _⟩ => show win2_0.index t (1 : Fin 2) * 1 + 1 * r.val = r.val; omega

/-- Window 1 of pallas_call 2: entry (q, r) of the block at point `t` is entry (5000 t + q, r) of its array. -/
theorem emb2_1 (t : Fin cfg2.N) (q : Fin 5000) (r : Fin 1) (p : Fin 100000) (hp : p.val = t.val * 5000 + q.val) :
    (((cfg2.win 1).blk t).view.emb (ix2 q r) : S100000x1.Idx) = ix2 p r := by
  obtain ⟨e0a, e0b, e1a, e1b, e2a, e2b, e3a, e3b⟩ := idx2 t
  funext a; apply Fin.ext
  match a with
  | ⟨0, _⟩ => show win2_1.index t (0 : Fin 2) * 5000 + 1 * q.val = p.val; omega
  | ⟨1, _⟩ => show win2_1.index t (1 : Fin 2) * 1 + 1 * r.val = r.val; omega

/-- Window 2 of pallas_call 2: its one block is its whole array. -/
theorem emb2_2 (t : Fin cfg2.N) (q : Fin 1) (r : Fin 1) :
    (((cfg2.win 2).blk t).view.emb (ix2 q r) : S1x1.Idx) = ix2 q r := by
  obtain ⟨e0a, e0b, e1a, e1b, e2a, e2b, e3a, e3b⟩ := idx2 t
  funext a; apply Fin.ext
  match a with
  | ⟨0, _⟩ => show win2_2.index t (0 : Fin 2) * 1 + 1 * q.val = q.val; omega
  | ⟨1, _⟩ => show win2_2.index t (1 : Fin 2) * 1 + 1 * r.val = r.val; omega

/-- Window 3 of pallas_call 2: entry (q, r) of the block at point `t` is entry (5000 t + q, r) of its array. -/
theorem emb2_3 (t : Fin cfg2.N) (q : Fin 5000) (r : Fin 1) (p : Fin 100000) (hp : p.val = t.val * 5000 + q.val) :
    (((cfg2.win 3).blk t).view.emb (ix2 q r) : S100000x1.Idx) = ix2 p r := by
  obtain ⟨e0a, e0b, e1a, e1b, e2a, e2b, e3a, e3b⟩ := idx2 t
  funext a; apply Fin.ext
  match a with
  | ⟨0, _⟩ => show win2_3.index t (0 : Fin 2) * 5000 + 1 * q.val = p.val; omega
  | ⟨1, _⟩ => show win2_3.index t (1 : Fin 2) * 1 + 1 * r.val = r.val; omega

/-- An index of the output array is in point `t`'s block iff each coordinate is in the block's range on its axis. -/
theorem mem_blk2 (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v43).slice (win2_3.rect t)).set ↔ _
  rw [View.set_slice_whole, Rect.mem_set_unit]
  exact Iff.rfl

/-- The 20 blocks of 5000 rows tile the output array: row r lies in the block of point r / 5000. -/
theorem cover2 (i : S100000x1.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 1 := (i 1).isLt
  have ht : (i 0).val / 5000 < cfg2.N := by rw [hN]; omega
  obtain ⟨e0a, e0b, e1a, e1b, e2a, e2b, e3a, e3b⟩ := idx2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e3a]; show (i 0).val / 5000 * 5000 ≤ (i 0).val ∧ (i 0).val < (i 0).val / 5000 * 5000 + 5000; omega
  | ⟨1, _⟩ =>
    show win2_3.index ⟨(i 0).val / 5000, ht⟩ (1 : Fin 2) * 1 ≤ (i 1).val ∧ (i 1).val < win2_3.index ⟨(i 0).val / 5000, ht⟩ (1 : Fin 2) * 1 + 1
    rw [e3b]; omega

/-- What point `t` of pallas_call 2 writes back is block `t` of the output probabilities. -/
theorem flushed2 (c : Dev nD) (t : Fin cfg2.N) :
    (dat2 V c).flushed 3 t = ((cfg2.win 3).blk t).view.read (Elt Ideal) (outProb (V c main_v41) (V c main_v18) (V c main_v42)) := by
  show (cfg2.win 3).cut (grid2.coords t) ((dat2 V c).after 3 t) = _
  rw [after2_3]
  unfold out2_3
  rw [View.canon_unit_zero hz]
  simp only [View.ld_unit_zero (S := S5000x1) hz, View.ld_unit_zero (S := S1x1) hz]
  funext j
  obtain ⟨q, z, rfl⟩ : ∃ (q : Fin 5000) (z : Fin 1), j = ix2 q z := ⟨j 0, j 1, eq_ix2 j⟩
  obtain rfl : z = 0 := Subsingleton.elim _ _
  have hN : cfg2.N = 20 := N_2
  have ht : t.val < 20 := hN ▸ t.isLt
  have hq : q.val < 5000 := q.isLt
  obtain ⟨p, hp⟩ : ∃ p : Fin 100000, p.val = t.val * 5000 + q.val := ⟨⟨t.val * 5000 + q.val, by omega⟩, rfl⟩
  show k2_pay1 (iblk2 V c 0 t) (iblk2 V c 1 t) (iblk2 V c 2 t) (ix2 q (0 : Fin 1))
    = outProb (V c main_v41) (V c main_v18) (V c main_v42) (((cfg2.win 3).blk t).view.emb (ix2 q (0 : Fin 1)) : S100000x1.Idx)
  rw [emb2_3 t q (0 : Fin 1) p hp]
  refine final_point (V c main_v41) (V c main_v18) (V c main_v42) (iblk2 V c 0 t) (iblk2 V c 1 t) (iblk2 V c 2 t) q p ?_ ?_ ?_
  · show V c main_v41 (((cfg2.win 0).blk t).view.emb (ix2 q (0 : Fin 1)) : S100000x1.Idx) = _
    rw [emb2_0 t q (0 : Fin 1) p hp]
  · show V c main_v18 (((cfg2.win 1).blk t).view.emb (ix2 q (0 : Fin 1)) : S100000x1.Idx) = _
    rw [emb2_1 t q (0 : Fin 1) p hp]
  · show V c main_v42 (((cfg2.win 2).blk t).view.emb (ix2 (0 : Fin 1) (0 : Fin 1)) : S1x1.Idx) = _
    rw [emb2_2 t (0 : Fin 1) (0 : Fin 1)]

/-- After pallas_call 2 its output column holds the output probabilities, whatever the arrays it was entered with. -/
theorem final2 (c : Dev nD) : (dat2 V c).arrAt 3 cfg2.N = outProb (V c main_v41) (V c main_v18) (V c main_v42) :=
  (dat2 V c).arrAt_eq_of_cover 3 _ (fun t _ => flushed2 V c t) cover2

end Cert.KernelIdeal.Blocks

end
-- ==== Proof.KernelValue.lean ====
/-
  The kernel program's result array, walked back through the segment boundaries to the launch arguments.

  Between the launch and pallas_call 0 the host computes the two degree-norm columns; pallas_call 0 scales the features;
  the next stretch aggregates the scaled rows along the edges and reshapes the hidden bias to a row; pallas_call 1 applies
  the hidden layer and the second layer's projection; the next stretch aggregates that column along the edges and reshapes
  the output bias; pallas_call 2 takes the logistic function. No segment writes an argument array, a stretch leaves every
  buffer it does not write as it found it, and a pallas_call leaves every array other than its output as it found it.
  So the result array holds `network` of the seven argument arrays.
-/
import proofs.«135483_j55594056680044_1_alg».proof.Proof.Blocks
import proofs.«135483_j55594056680044_1_alg».proof.Proof.Chain
import Idealize.ShloMosaic.Lib.StableHlo.Run
import Idealize.ShloMosaic.Lib.ValueLayout

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo
open Idealize.ShloMosaic.ValueIdx
open Idealize.ShloMosaic.Pipeline (Dat)
open Cert.GraphConv Cert.KernelIdeal.Blocks

/-! ## A bias vector reshaped to a row is the same array as the vector broadcast into a row -/

theorem biasRow_eq (b1 : FVec Ideal S64 .f32) : shapeCast S1x64 b1 shapeCasts_S64_S1x64 = biasRow b1 := by
  funext i
  obtain ⟨u, k, rfl⟩ : ∃ (u : Fin 1) (k : Fin 64), i = ix2 u k := ⟨i 0, i 1, eq_ix2 i⟩
  rw [shapeCast_a_1a_apply]
  unfold biasRow
  exact (broadcastInDim_apply _ Cert.ReferenceIdeal.Gen.bcast_S64_S1x64_1 b1 (ix2 u k) (ix1 k) (fun a => match a with
    | ⟨0, _⟩ => by show k.val = if (64 : Nat) = 1 then 0 else k.val; rw [if_neg (by decide)])).symm

theorem biasUnit_eq (b2 : FVec Ideal S1 .f32) : shapeCast S1x1 b2 shapeCasts_S1_S1x1 = biasUnit b2 := by
  funext i
  obtain ⟨u, k, rfl⟩ : ∃ (u : Fin 1) (k : Fin 1), i = ix2 u k := ⟨i 0, i 1, eq_ix2 i⟩
  rw [shapeCast_a_1a_apply]
  unfold biasUnit
  exact (broadcastInDim_apply _ Cert.ReferenceIdeal.Gen.bcast_S1_S1x1_1 b2 (ix2 u k) (ix1 k) (fun a => match a with
    | ⟨0, _⟩ => by show k.val = if (1 : Nat) = 1 then 0 else k.val; rw [if_pos rfl]; omega)).symm

/-! ## The outlined selection -/

section Outlined
variable {F : FTy → Type} [FloatOps F]

/-- The three operations of the first outlined selection (keep the degree where it is positive, else 1) are plain
    operations on their buffers: reading and writing a buffer at its own type changes nothing. -/
theorem where0_ops : (hostOps0_1 : List (HloOp τ sig (Elt F)))
    = [ StableHlo.unary main_cst_3 main_call0_v0 (id : (⟨S_, .f32⟩ : BufTy).Contents (Elt F) → (⟨S_, .f32⟩ : BufTy).Contents (Elt F)),
        StableHlo.unary main_call0_v0 main_call0_v1 (broadcastInDim S100000 ![] bcast_S_S100000 : (⟨S_, .f32⟩ : BufTy).Contents (Elt F) → (⟨S100000, .f32⟩ : BufTy).Contents (Elt F)),
        StableHlo.ternary main_v8 main_v3 main_call0_v1 main_v9 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

/-- The same for the second outlined selection. -/
theorem where1_ops : (hostOps0_3 : List (HloOp τ sig (Elt F)))
    = [ StableHlo.unary main_cst_6 main_call1_v0 (id : (⟨S_, .f32⟩ : BufTy).Contents (Elt F) → (⟨S_, .f32⟩ : BufTy).Contents (Elt F)),
        StableHlo.unary main_call1_v0 main_call1_v1 (broadcastInDim S100000 ![] bcast_S_S100000 : (⟨S_, .f32⟩ : BufTy).Contents (Elt F) → (⟨S100000, .f32⟩ : BufTy).Contents (Elt F)),
        StableHlo.ternary main_v13 main_v6 main_call1_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ] := rfl

end Outlined

variable (m : (ℓ : Loc nD τ sig) → Buf (Elt Ideal) ℓ) (ρ : Dev nD → PrngReg) (c : Dev nD)

/-! ## At the entry of pallas_call 0 -/

theorem W5_arg0 : W5 m ρ c (Proc.devRef .tc main_arg0) = (m ((c : Thread nD τ).loc main_arg0)) := by
  dsimp only [V9, W9, V7, W7, V5, W5, W4, W3, W2, W1, hostOps0, hostOps0_1, hostOps0_2, hostOps0_3, hostOps0_4, hostOps1, hostOps2]
  after_results
theorem W5_arg1 : W5 m ρ c (Proc.devRef .tc main_arg1) = (m ((c : Thread nD τ).loc main_arg1)) := by
  dsimp only [V9, W9, V7, W7, V5, W5, W4, W3, W2, W1, hostOps0, hostOps0_1, hostOps0_2, hostOps0_3, hostOps0_4, hostOps1, hostOps2]
  after_results
theorem W5_arg2 : W5 m ρ c (Proc.devRef .tc main_arg2) = (m ((c : Thread nD τ).loc main_arg2)) := by
  dsimp only [V9, W9, V7, W7, V5, W5, W4, W3, W2, W1, hostOps0, hostOps0_1, hostOps0_2, hostOps0_3, hostOps0_4, hostOps1, hostOps2]
  after_results
theorem W5_arg3 : W5 m ρ c (Proc.devRef .tc main_arg3) = (m ((c : Thread nD τ).loc main_arg3)) := by
  dsimp only [V9, W9, V7, W7, V5, W5, W4, W3, W2, W1, hostOps0, hostOps0_1, hostOps0_2, hostOps0_3, hostOps0_4, hostOps1, hostOps2]
  after_results
theorem W5_arg4 : W5 m ρ c (Proc.devRef .tc main_arg4) = (m ((c : Thread nD τ).loc main_arg4)) := by
  dsimp only [V9, W9, V7, W7, V5, W5, W4, W3, W2, W1, hostOps0, hostOps0_1, hostOps0_2, hostOps0_3, hostOps0_4, hostOps1, hostOps2]
  after_results
theorem W5_arg5 : W5 m ρ c (Proc.devRef .tc main_arg5) = (m ((c : Thread nD τ).loc main_arg5)) := by
  dsimp only [V9, W9, V7, W7, V5, W5, W4, W3, W2, W1, hostOps0, hostOps0_1, hostOps0_2, hostOps0_3, hostOps0_4, hostOps1, hostOps2]
  after_results
theorem W5_arg6 : W5 m ρ c (Proc.devRef .tc main_arg6) = (m ((c : Thread nD τ).loc main_arg6)) := by
  dsimp only [V9, W9, V7, W7, V5, W5, W4, W3, W2, W1, hostOps0, hostOps0_1, hostOps0_2, hostOps0_3, hostOps0_4, hostOps1, hostOps2]
  after_results

set_option maxHeartbeats 1000000 in
/-- The column pallas_call 0 scales by: the out-degree norm. -/
theorem V5_nout : V5 m ρ c main_v17 = degNorm (m ((c : Thread nD τ).loc main_arg1)) := by
  show W5 m ρ c (Proc.devRef .tc main_v17) = _
  dsimp only [W5, W4, W3, W2, W1]
  rw [where0_ops, where1_ops]
  dsimp only [hostOps0, hostOps0_2, hostOps0_4]
  after_results
  rfl

set_option maxHeartbeats 1000000 in
/-- The in-degree norm column. -/
theorem V5_nin : V5 m ρ c main_v18 = degNorm (m ((c : Thread nD τ).loc main_arg2)) := by
  show W5 m ρ c (Proc.devRef .tc main_v18) = _
  dsimp only [W5, W4, W3, W2, W1]
  rw [where0_ops, where1_ops]
  dsimp only [hostOps0, hostOps0_2, hostOps0_4]
  after_results
  rfl

/-! ## At the exit of pallas_call 0 -/

theorem W6_scaled : W6 m ρ c (Proc.devRef .tc main_v19) = scaleRows (m ((c : Thread nD τ).loc main_arg0)) (degNorm (m ((c : Thread nD τ).loc main_arg1))) :=
  (W6_arr m ρ c 2).trans ((final0 (V5 m ρ) c).trans (congrArg₂ scaleRows (W5_arg0 m ρ c) (V5_nout m ρ c)))

theorem W6_nout : W6 m ρ c (Proc.devRef .tc main_v17) = degNorm (m ((c : Thread nD τ).loc main_arg1)) :=
  (W6_arr m ρ c 1).trans (((dat0 (V5 m ρ) c).arrAt_in 1 rfl _).trans ((A_eq0 (V5 m ρ) c 1).trans (V5_nout m ρ c)))

theorem W6_nin : W6 m ρ c (Proc.devRef .tc main_v18) = degNorm (m ((c : Thread nD τ).loc main_arg2)) :=
  (W6_of_ne m ρ c main_v18 (by decide)).trans (V5_nin m ρ c)

theorem W6_arg1 : W6 m ρ c (Proc.devRef .tc main_arg1) = (m ((c : Thread nD τ).loc main_arg1)) :=
  (W6_of_ne m ρ c main_arg1 (by decide)).trans (W5_arg1 m ρ c)
theorem W6_arg2 : W6 m ρ c (Proc.devRef .tc main_arg2) = (m ((c : Thread nD τ).loc main_arg2)) :=
  (W6_of_ne m ρ c main_arg2 (by decide)).trans (W5_arg2 m ρ c)
theorem W6_arg3 : W6 m ρ c (Proc.devRef .tc main_arg3) = (m ((c : Thread nD τ).loc main_arg3)) :=
  (W6_of_ne m ρ c main_arg3 (by decide)).trans (W5_arg3 m ρ c)
theorem W6_arg4 : W6 m ρ c (Proc.devRef .tc main_arg4) = (m ((c : Thread nD τ).loc main_arg4)) :=
  (W6_of_ne m ρ c main_arg4 (by decide)).trans (W5_arg4 m ρ c)
theorem W6_arg5 : W6 m ρ c (Proc.devRef .tc main_arg5) = (m ((c : Thread nD τ).loc main_arg5)) :=
  (W6_of_ne m ρ c main_arg5 (by decide)).trans (W5_arg5 m ρ c)
theorem W6_arg6 : W6 m ρ c (Proc.devRef .tc main_arg6) = (m ((c : Thread nD τ).loc main_arg6)) :=
  (W6_of_ne m ρ c main_arg6 (by decide)).trans (W5_arg6 m ρ c)

/-! ## At the entry of pallas_call 1 -/

set_option maxHeartbeats 4000000 in
/-- The scaled features aggregated along the edges. -/
theorem V7_agg : V7 m ρ c main_v29 = aggRows (scaleRows (m ((c : Thread nD τ).loc main_arg0)) (degNorm (m ((c : Thread nD τ).loc main_arg1)))) (m ((c : Thread nD τ).loc main_arg1)) (m ((c : Thread nD τ).loc main_arg2)) := by
  show W7 m ρ c (Proc.devRef .tc main_v29) = _
  dsimp only [V9, W9, V7, W7, V5, W5, W4, W3, W2, W1, hostOps0, hostOps0_1, hostOps0_2, hostOps0_3, hostOps0_4, hostOps1, hostOps2]
  after_results
  rw [W6_scaled, W6_arg1, W6_arg2]
  rfl

theorem V7_nin : V7 m ρ c main_v18 = degNorm (m ((c : Thread nD τ).loc main_arg2)) := by
  show W7 m ρ c (Proc.devRef .tc main_v18) = _
  dsimp only [V9, W9, V7, W7, V5, W5, W4, W3, W2, W1, hostOps0, hostOps0_1, hostOps0_2, hostOps0_3, hostOps0_4, hostOps1, hostOps2]
  after_results
  exact W6_nin m ρ c

theorem V7_nout : V7 m ρ c main_v17 = degNorm (m ((c : Thread nD τ).loc main_arg1)) := by
  show W7 m ρ c (Proc.devRef .tc main_v17) = _
  dsimp only [V9, W9, V7, W7, V5, W5, W4, W3, W2, W1, hostOps0, hostOps0_1, hostOps0_2, hostOps0_3, hostOps0_4, hostOps1, hostOps2]
  after_results
  exact W6_nout m ρ c

theorem V7_W1 : V7 m ρ c main_arg3 = (m ((c : Thread nD τ).loc main_arg3)) := by
  show W7 m ρ c (Proc.devRef .tc main_arg3) = _
  dsimp only [V9, W9, V7, W7, V5, W5, W4, W3, W2, W1, hostOps0, hostOps0_1, hostOps0_2, hostOps0_3, hostOps0_4, hostOps1, hostOps2]
  after_results
  exact W6_arg3 m ρ c

theorem V7_W2 : V7 m ρ c main_arg5 = (m ((c : Thread nD τ).loc main_arg5)) := by
  show W7 m ρ c (Proc.devRef .tc main_arg5) = _
  dsimp only [V9, W9, V7, W7, V5, W5, W4, W3, W2, W1, hostOps0, hostOps0_1, hostOps0_2, hostOps0_3, hostOps0_4, hostOps1, hostOps2]
  after_results
  exact W6_arg5 m ρ c

/-- The hidden bias as a row. -/
theorem V7_b1 : V7 m ρ c main_v30 = biasRow (m ((c : Thread nD τ).loc main_arg4)) := by
  show W7 m ρ c (Proc.devRef .tc main_v30) = _
  dsimp only [V9, W9, V7, W7, V5, W5, W4, W3, W2, W1, hostOps0, hostOps0_1, hostOps0_2, hostOps0_3, hostOps0_4, hostOps1, hostOps2]
  after_results
  rw [W6_arg4]
  exact biasRow_eq _

theorem W7_arg1 : W7 m ρ c (Proc.devRef .tc main_arg1) = (m ((c : Thread nD τ).loc main_arg1)) := by
  dsimp only [V9, W9, V7, W7, V5, W5, W4, W3, W2, W1, hostOps0, hostOps0_1, hostOps0_2, hostOps0_3, hostOps0_4, hostOps1, hostOps2]
  after_results
  exact W6_arg1 m ρ c
theorem W7_arg2 : W7 m ρ c (Proc.devRef .tc main_arg2) = (m ((c : Thread nD τ).loc main_arg2)) := by
  dsimp only [V9, W9, V7, W7, V5, W5, W4, W3, W2, W1, hostOps0, hostOps0_1, hostOps0_2, hostOps0_3, hostOps0_4, hostOps1, hostOps2]
  after_results
  exact W6_arg2 m ρ c
theorem W7_arg6 : W7 m ρ c (Proc.devRef .tc main_arg6) = (m ((c : Thread nD τ).loc main_arg6)) := by
  dsimp only [V9, W9, V7, W7, V5, W5, W4, W3, W2, W1, hostOps0, hostOps0_1, hostOps0_2, hostOps0_3, hostOps0_4, hostOps1, hostOps2]
  after_results
  exact W6_arg6 m ρ c

/-! ## At the exit of pallas_call 1 -/

/-- The hidden layer's output projected by the second layer's weights. -/
theorem W8_proj : W8 m ρ c (Proc.devRef .tc main_v31)
    = hiddenProj (aggRows (scaleRows (m ((c : Thread nD τ).loc main_arg0)) (degNorm (m ((c : Thread nD τ).loc main_arg1)))) (m ((c : Thread nD τ).loc main_arg1)) (m ((c : Thread nD τ).loc main_arg2))) (degNorm (m ((c : Thread nD τ).loc main_arg2))) (degNorm (m ((c : Thread nD τ).loc main_arg1))) (m ((c : Thread nD τ).loc main_arg3)) (biasRow (m ((c : Thread nD τ).loc main_arg4))) (m ((c : Thread nD τ).loc main_arg5)) := by
  refine (W8_arr m ρ c 6).trans ((final1 (V7 m ρ) c).trans ?_)
  rw [V7_agg, V7_nin, V7_nout, V7_W1, V7_b1, V7_W2]

theorem W8_nin : W8 m ρ c (Proc.devRef .tc main_v18) = degNorm (m ((c : Thread nD τ).loc main_arg2)) :=
  (W8_arr m ρ c 1).trans (((dat1 (V7 m ρ) c).arrAt_in 1 rfl _).trans ((A_eq1 (V7 m ρ) c 1).trans (V7_nin m ρ c)))

theorem W8_arg1 : W8 m ρ c (Proc.devRef .tc main_arg1) = (m ((c : Thread nD τ).loc main_arg1)) :=
  (W8_of_ne m ρ c main_arg1 (by decide)).trans (W7_arg1 m ρ c)
theorem W8_arg2 : W8 m ρ c (Proc.devRef .tc main_arg2) = (m ((c : Thread nD τ).loc main_arg2)) :=
  (W8_of_ne m ρ c main_arg2 (by decide)).trans (W7_arg2 m ρ c)
theorem W8_arg6 : W8 m ρ c (Proc.devRef .tc main_arg6) = (m ((c : Thread nD τ).loc main_arg6)) :=
  (W8_of_ne m ρ c main_arg6 (by decide)).trans (W7_arg6 m ρ c)

/-! ## At the entry of pallas_call 2 -/

set_option maxHeartbeats 4000000 in
/-- The projected column aggregated along the edges. -/
theorem V9_agg : V9 m ρ c main_v41
    = aggCol (hiddenProj (aggRows (scaleRows (m ((c : Thread nD τ).loc main_arg0)) (degNorm (m ((c : Thread nD τ).loc main_arg1)))) (m ((c : Thread nD τ).loc main_arg1)) (m ((c : Thread nD τ).loc main_arg2))) (degNorm (m ((c : Thread nD τ).loc main_arg2))) (degNorm (m ((c : Thread nD τ).loc main_arg1))) (m ((c : Thread nD τ).loc main_arg3)) (biasRow (m ((c : Thread nD τ).loc main_arg4))) (m ((c : Thread nD τ).loc main_arg5))) (m ((c : Thread nD τ).loc main_arg1)) (m ((c : Thread nD τ).loc main_arg2)) := by
  show W9 m ρ c (Proc.devRef .tc main_v41) = _
  dsimp only [V9, W9, V7, W7, V5, W5, W4, W3, W2, W1, hostOps0, hostOps0_1, hostOps0_2, hostOps0_3, hostOps0_4, hostOps1, hostOps2]
  after_results
  rw [W8_proj, W8_arg1, W8_arg2]
  rfl

theorem V9_nin : V9 m ρ c main_v18 = degNorm (m ((c : Thread nD τ).loc main_arg2)) := by
  show W9 m ρ c (Proc.devRef .tc main_v18) = _
  dsimp only [V9, W9, V7, W7, V5, W5, W4, W3, W2, W1, hostOps0, hostOps0_1, hostOps0_2, hostOps0_3, hostOps0_4, hostOps1, hostOps2]
  after_results
  exact W8_nin m ρ c

theorem V9_b2 : V9 m ρ c main_v42 = biasUnit (m ((c : Thread nD τ).loc main_arg6)) := by
  show W9 m ρ c (Proc.devRef .tc main_v42) = _
  dsimp only [V9, W9, V7, W7, V5, W5, W4, W3, W2, W1, hostOps0, hostOps0_1, hostOps0_2, hostOps0_3, hostOps0_4, hostOps1, hostOps2]
  after_results
  rw [W8_arg6]
  exact biasUnit_eq _

/-! ## The result -/

/-- The kernel program's result array holds the network's output of the argument arrays. -/
theorem result_eq : W10 m ρ c (Proc.devRef .tc main_v43)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 3).trans ((final2 (V9 m ρ) c).trans ?_)
  rw [V9_agg, V9_nin, V9_b2]
  rfl

end Cert.KernelIdeal.Walk

end
-- ==== Proof.lean ====
/-
  A two-layer graph convolution with a logistic output, tiled over the nodes, against its reference.

  Both programs compute, for N = 100000 nodes, E = 1600000 edges (src → dst) and 64 features,
      out = logistic( A_in · relu( (A_in · (x ⊙ n_out)) W1 + b1 ) ⊙ n_out W2 ⊙ n_in + b2 ),
  where n_out and n_in are the columns deg^(-1/2) of the out- and in-degrees (1 where a degree is 0), ⊙ scales rows,
  and A_in · h adds up, at every node, the rows of h at the sources of the edges arriving there.
  The kernel program spends three pallas_calls, each over 20 tiles of 5000 node rows — the row scaling, the hidden layer
  with the second layer's projection (two matrix products over the 64 features, accumulated in single precision from
  half-precision copies of their operands), and the logistic output — and leaves the degree norms and the two edge
  aggregations to host operations, which the reference spells the same way. The reference computes the degree norms twice;
  they are the same function of the same edge arrays.

  At the ideal instance a change of float format is the identity, a matrix product into a zero accumulator is the plain sum
  over the contracted axis (the same 64 terms in the same order as the reference's contraction), and the logistic
  operation is 1 / (1 + exp(-v)) on every extended real, which is how the reference spells it. So the two sides are the
  same function with no algebraic law in between, and the precondition (finite inputs) is never opened.

  Proof/Stages.lean     the three dense stages as whole-array functions, each read at an index
  Proof/Chain.lean      the degree norms, the edge aggregations and the whole network as a composition
  Proof/ReferenceRun.lean, Proof/RefValue.lean   the reference's run, and its result as `network` of the arguments
  Proof/Bodies.lean, Proof/Points.lean            what each kernel body stores, and that it is the stage at the tile's rows
  Proof/Blocks.lean     each pallas_call's output array as the stage of its entry arrays (the 20 blocks tile the array)
  Proof/KernelNamed.lean, Proof/KernelValue.lean  the kernel program's run, and its result walked back to `network`
-/
import proofs.«135483_j55594056680044_1_alg».proof.Defs
import proofs.«135483_j55594056680044_1_alg».proof.Proof.Gen.Kernel
import proofs.«135483_j55594056680044_1_alg».proof.Proof.Gen.Kernel.Frame
import proofs.«135483_j55594056680044_1_alg».proof.Proof.Gen.KernelIdeal
import proofs.«135483_j55594056680044_1_alg».proof.Proof.Gen.KernelIdeal.Frame
import proofs.«135483_j55594056680044_1_alg».proof.Proof.Gen.ReferenceIdeal
import proofs.«135483_j55594056680044_1_alg».proof.Proof.Gen.Pre_finite_inputs
import proofs.«135483_j55594056680044_1_alg».proof.Proof.ReferenceRun
import proofs.«135483_j55594056680044_1_alg».proof.Proof.RefValue
import proofs.«135483_j55594056680044_1_alg».proof.Proof.KernelNamed
import proofs.«135483_j55594056680044_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The ideal pass rewrote no operation of the kernel program. -/
theorem preserves : Cert.preserves_Kernel_KernelIdeal := trivial

/-- From memories agreeing on the seven arguments, both programs end with the network's output of those arguments. -/
theorem algebraic : Cert.algebraic_KernelIdeal_ReferenceIdeal := by
  intro m ρ m' ρ' _ hagree
  refine ⟨fun c => Cert.GraphConv.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Walk.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RunP.run (F := Ideal) m' ρ')
    obtain ⟨e0, e1, e2, e3, e4, e5, e6⟩ := hagree c
    rw [Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
